-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x64x128 : Shape := ⟨3, ![8192, 64, 128]⟩
abbrev S128x64x128 : Shape := ⟨3, ![128, 64, 128]⟩
abbrev S128x64 : Shape := ⟨2, ![128, 64]⟩
abbrev S128x64x1 : Shape := ⟨3, ![128, 64, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x64x128, .f32⟩
  | .hbm, ⟨2, _⟩ => ⟨S8192x64x128, .f32⟩
  | .hbm, ⟨3, _⟩ => ⟨S8192x8192, .f32⟩
  | .local _ .vmem, ⟨0, _⟩ => ⟨S128x64x128, .f32⟩
  | .local _ .vmem, ⟨1, _⟩ => ⟨S128x64x128, .f32⟩
  | .local _ .vmem, ⟨2, _⟩ => ⟨S128x64x128, .f32⟩
  | .local _ .vmem, ⟨3, _⟩ => ⟨S128x64x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x8192_S8192x64x128 : S8192x8192.ShapeCasts S8192x64x128
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  reduces_S128x64x128_S128x64 : S128x64x128.Reduces [2] S128x64
  shapeCasts_S128x64_S128x64x1 : S128x64.ShapeCasts S128x64x1
  broadcasts_S128x64x1_S128x64x128 : S128x64x1.Broadcasts S128x64x128
  shapeCasts_S8192x64x128_S8192x8192 : S8192x64x128.ShapeCasts S8192x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S8192x64x128.size a
  hwx0_0 : ∀ i : grid0.Coords, EltTy.bits .f32 = 32 ∨ (Rect.block (s := S8192x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x128.size a ≤ S8192x64x128.size a
  hwx0_1 : ∀ i : grid0.Coords, EltTy.bits .f32 = 32 ∨ (Rect.block (s := S8192x64x128) S128x64x128.size (cc0_transform_1 i) (hinb0_1 i)).WholeWords (EltTy.packing .f32)

variable [Facts₀]

abbrev win0_0 : Pipeline.Window sig grid0 :=
  Pipeline.Window.ofSpec (Memref.whole main_v0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S524288x128 : Shape := ⟨2, ![524288, 128]⟩
abbrev S_ : Shape := ⟨0, ![]⟩
abbrev S524288 : Shape := ⟨1, ![524288]⟩
abbrev S524288x1 : Shape := ⟨2, ![524288, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S524288x128, .f32⟩
  | .hbm, ⟨2, _⟩ => ⟨S_, .f32⟩
  | .hbm, ⟨3, _⟩ => ⟨S524288, .f32⟩
  | .hbm, ⟨4, _⟩ => ⟨S524288x1, .f32⟩
  | .hbm, ⟨5, _⟩ => ⟨S_, .f32⟩
  | .hbm, ⟨6, _⟩ => ⟨S524288, .f32⟩
  | .hbm, ⟨7, _⟩ => ⟨S524288x1, .f32⟩
  | .hbm, ⟨8, _⟩ => ⟨S524288x1, .f32⟩
  | .hbm, ⟨9, _⟩ => ⟨S_, .f32⟩
  | .hbm, ⟨10, _⟩ => ⟨S524288x1, .f32⟩
  | .hbm, ⟨11, _⟩ => ⟨S524288x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S524288x1, .f32⟩
  | .hbm, ⟨16, _⟩ => ⟨S524288x1, .f32⟩
  | .hbm, ⟨17, _⟩ => ⟨S_, .f32⟩
  | .hbm, ⟨18, _⟩ => ⟨S524288x1, .f32⟩
  | .hbm, ⟨19, _⟩ => ⟨S524288x1, .f32⟩
  | .hbm, ⟨20, _⟩ => ⟨S524288x1, .f32⟩
  | .hbm, ⟨21, _⟩ => ⟨S524288x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S524288x1, .f32⟩
  | .hbm, ⟨26, _⟩ => ⟨S524288x1, .f32⟩
  | .hbm, ⟨27, _⟩ => ⟨S_, .f32⟩
  | .hbm, ⟨28, _⟩ => ⟨S524288x1, .f32⟩
  | .hbm, ⟨29, _⟩ => ⟨S524288x1, .f32⟩
  | .hbm, ⟨30, _⟩ => ⟨S524288x1, .f32⟩
  | .hbm, ⟨31, _⟩ => ⟨S524288x128, .f32⟩
  | .hbm, ⟨32, _⟩ => ⟨S524288x128, .f32⟩
  | .hbm, ⟨33, _⟩ => ⟨S524288x128, .f32⟩
  | .hbm, ⟨34, _⟩ => ⟨S524288x128, .f32⟩
  | .hbm, ⟨35, _⟩ => ⟨S524288x128, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S524288x128, .f32⟩
  | .hbm, ⟨40, _⟩ => ⟨S524288x128, .f32⟩
  | .hbm, ⟨41, _⟩ => ⟨S_, .f32⟩
  | .hbm, ⟨42, _⟩ => ⟨S524288x128, .f32⟩
  | .hbm, ⟨43, _⟩ => ⟨S524288x128, .f32⟩
  | .hbm, ⟨44, _⟩ => ⟨S524288x128, .f32⟩
  | .hbm, ⟨45, _⟩ => ⟨S524288x128, .f32⟩
  | .hbm, ⟨46, _⟩ => ⟨S524288x128, .f32⟩
  | .hbm, ⟨47, _⟩ => ⟨S524288x128, .f32⟩
  | .hbm, ⟨48, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_c_6 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_call4_v3 : Ref sig .tc := ⟨.hbm, 41, rfl⟩
abbrev main_call4_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]

class Facts₀ : Prop where
  shapeCasts_S8192x8192_S524288x128 : S8192x8192.ShapeCasts S524288x128
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S_S524288x128 : S_.BroadcastsInDim S524288x128 (![] : Fin 0 → Fin S524288x128.rank)
  shapeCasts_S524288x128_S8192x8192 : S524288x128.ShapeCasts S8192x8192

variable [Facts₀]

class Facts : Prop extends Facts₀ where

variable [Facts]
-- ==== Proof.QuantSpec.lean ====
/-
  Group-wise asymmetric fake quantisation, as one function on extended reals.

  A group is 128 consecutive entries g(0), …, g(127). Its minimum and maximum are the folds of `min` and
  `max` from +∞ and −∞. The step is scale = clamp((max − min) / 15, 1e-5, 1e4), the offset is
  zp = round(clamp((−min) / scale, −1e4, 1e4)) (round to nearest, ties to even), and an entry v of the group
  becomes (clamp(round(v / scale) + zp, 0, 15) − zp) · scale. The float literals are kept as the words the
  two programs spell; only 0 and 15 are ever evaluated.

  The same formula is then laid over two arrangements of the data: a [rows, 64, 128] array, whose groups are
  the lines along the last axis, and a [524288, 128] array, whose groups are its rows.
-/
import Idealize.ShloMosaic.Lib.ValueIdx
import Idealize.ShloMosaic.PureOps.Ideal.Laws

noncomputable section

namespace Cert.Quant

open Idealize.ShloMosaic Idealize.ShloMosaic.ValueIdx

/-- The smallest entry of a group, folded from +∞. -/
def groupMin (g : Fin 128 → EReal) : EReal :=
  (Finset.univ : Finset (Fin 128)).fold min (Ideal.ofBits .f32 0x7F800000#32) g

/-- The largest entry of a group, folded from −∞. -/
def groupMax (g : Fin 128 → EReal) : EReal :=
  (Finset.univ : Finset (Fin 128)).fold max (Ideal.ofBits .f32 0xFF800000#32) g

/-- The quantisation step of a group: its range over 15, clamped to [1e-5, 1e4]. -/
def scale (g : Fin 128 → EReal) : EReal :=
  min (Ideal.ofBits .f32 0x461C4000#32)
    (max (Ideal.ofBits .f32 0x3727C5AC#32) (Ideal.div (groupMax g - groupMin g) (Ideal.ofBits .f32 0x41700000#32)))

/-- The rounded zero point of a group: −min / scale, clamped to [−1e4, 1e4], rounded half to even. -/
def zeroPoint (g : Fin 128 → EReal) : EReal :=
  Ideal.liftRound Ideal.roundHalfEven
    (min (Ideal.ofBits .f32 0x461C4000#32)
      (max (Ideal.ofBits .f32 0xC61C4000#32) (Ideal.div (-(groupMin g)) (scale g))))

/-- An entry `v` of the group `g`, quantised to the 16 levels and mapped back. -/
def fakeQuant (g : Fin 128 → EReal) (v : EReal) : EReal :=
  (min (Ideal.ofBits .f32 0x41700000#32)
      (max 0 (Ideal.liftRound Ideal.roundHalfEven (Ideal.div v (scale g)) + zeroPoint g)) - zeroPoint g) * scale g

/-- The word of 15.0 denotes the real 15. -/
theorem ofBits_fifteen : Ideal.ofBits .f32 0x41700000#32 = ((15 : ℝ) : EReal) := by
  simp [Ideal.ofBits, Ideal.ieee, -EReal.coe_mul]; norm_num

/-- The 32-bit integer 15, read as a float, is what the word of 15.0 denotes. -/
theorem int_fifteen : ((((15#32 : BitVec 32).toInt : ℤ) : ℝ) : EReal) = Ideal.ofBits .f32 0x41700000#32 := by
  have h : (15#32 : BitVec 32).toInt = 15 := by decide
  rw [ofBits_fifteen, h]; norm_num

/-- The 32-bit integer 0, read as a float, is 0. -/
theorem int_zero : ((((0#32 : BitVec 32).toInt : ℤ) : ℝ) : EReal) = 0 := by
  norm_num

/-- Over a [n, 64, 128] array: entry (r, c, l) quantised within its line (r, c, ·). -/
def onLines {n : ℕ} (X : (⟨3, ![n, 64, 128]⟩ : Shape).Idx → EReal) : (⟨3, ![n, 64, 128]⟩ : Shape).Idx → EReal :=
  fun j => fakeQuant (fun l => X (ix3 (j 0) (j 1) l)) (X j)

/-- Over a [524288, 128] array: entry (q, l) quantised within its row q. -/
def onRows (X : (⟨2, ![524288, 128]⟩ : Shape).Idx → EReal) : (⟨2, ![524288, 128]⟩ : Shape).Idx → EReal :=
  fun j => fakeQuant (fun l => X (ix2 (j 0) l)) (X j)

end Cert.Quant

end
-- ==== Proof.LibLaneFold.lean ====
/-
  Reductions along the last axis, read at one index, for any extents.

  A host reduction of an [a, b] array along axis 1 by a commutative and associative operation holds, at row
  p, the fold of the operation from the initial value over the entries (p, k), k < b. A kernel's minimum or
  maximum reduction of an [a, b, c] array along axis 2, from the value a starting word denotes, holds at
  (p, q) the fold of `min` or `max` from that value over the entries (p, q, k), k < c. Each holds for
  arbitrary proofs of the operation's side conditions and depends on no program.
-/
import Idealize.ShloMosaic.Lib.ValueIdx
import Idealize.ShloMosaic.PureOps.Ideal.Laws
import Idealize.ShloMosaic.PureOps.Reduce

noncomputable section

namespace Cert.LaneFold

open Idealize.ShloMosaic Idealize.ShloMosaic.ValueIdx

/-- Row p of an [a, b] array with column k put back is (p, k). -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- Line (p, q) of an [a, b, c] array with lane k put back is (p, q, k). -/
theorem lift_lane {a b c : ℕ} (h : (⟨3, ![a, b, c]⟩ : Shape).Reduces [2] ⟨2, ![a, b]⟩) (p : Fin a) (q : Fin b) (k : Fin c) :
    h.lift (ix2 p q) k = ix3 p q k := by
  funext d; apply Fin.ext
  match d with
  | ⟨0, _⟩ => rfl
  | ⟨1, _⟩ => rfl
  | ⟨2, _⟩ => rfl

/-- A host reduction of an [a, b] array along axis 1, at row p: the fold over that row from the initial value. -/
theorem host_row_fold {a b : ℕ} {u : Shape} {α : Type} (f : α → α → α) [Std.Commutative f] [Std.Associative f]
    (v : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce f v init h' hu (ix1 p)
      = (Finset.univ : Finset (Fin b)).fold f (init (Shape.Idx.first hu)) fun k => v (ix2 p k) :=
  (Host.reduce_eq_fold_single f v init h' h hu (ix1 p)).trans
    (congrArg (fun g => Finset.fold f (init (Shape.Idx.first hu)) g (Finset.univ : Finset (Fin b)))
      (funext fun k => congrArg v (lift_row h p k)))

/-- A kernel's maximum along the last axis of an [a, b, c] array, at (p, q): the fold of `max` over that line. -/
theorem lane_max {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.maximumf.neutral .f32 hφ) (p : Fin a) (q : Fin b) :
    multiReduction .maximumf [2] ⟨2, ![a, b]⟩ v acc h hφ hacc (ix2 p q)
      = (Finset.univ : Finset (Fin c)).fold max (Ideal.ofBits .f32 acc) fun k => v (ix3 p q k) :=
  (Ideal.multiReduction_maximumf_single v acc h hφ hacc (ix2 p q)).trans
    (congrArg (fun g => Finset.fold max (Ideal.ofBits .f32 acc) g (Finset.univ : Finset (Fin c)))
      (funext fun k => congrArg v (lift_lane h p q k)))

/-- A kernel's minimum along the last axis of an [a, b, c] array, at (p, q): the fold of `min` over that line. -/
theorem lane_min {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.minimumf.neutral .f32 hφ) (p : Fin a) (q : Fin b) :
    multiReduction .minimumf [2] ⟨2, ![a, b]⟩ v acc h hφ hacc (ix2 p q)
      = (Finset.univ : Finset (Fin c)).fold min (Ideal.ofBits .f32 acc) fun k => v (ix3 p q k) :=
  ((multiReduction_minimumf_eq_fold v acc h hφ hacc (ix2 p q)).trans
      (h.fold_filter_drop_single _ _ v (ix2 p q))).trans
    (congrArg (fun g => Finset.fold min (Ideal.ofBits .f32 acc) g (Finset.univ : Finset (Fin c)))
      (funext fun k => congrArg v (lift_lane h p q k)))

end Cert.LaneFold

end
-- ==== Proof.LibLaneLayout.lean ====
/-
  Two layout facts for arrays with a trailing unit axis, read at an index, for any extents: an [a, b] array
  cast to [a, b, 1] reads, at (p, q, u), the operand at (p, q); an [a, b, 1] array broadcast to [a, b, c]
  reads, at (p, q, l), the operand at (p, q, 0). Depends on no program.
-/
import Idealize.ShloMosaic.Lib.ValueIdx
import Idealize.ShloMosaic.Lib.Pipeline.Value

namespace Cert.LaneLayout

open Idealize.ShloMosaic Idealize.ShloMosaic.ValueIdx

variable {α : Type}

/-- An [a, b] array cast to [a, b, 1] reads, at (p, q, u), the operand at (p, q). -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_three, Shape.rowMajor_val_two]
    show p.val * b + q.val = (p.val * b + q.val) * 1 + u.val
    rw [hu, Nat.mul_one, Nat.add_zero])

/-- An [a, b, 1] array broadcast along its last axis to [a, b, c] reads, at (p, q, l), the operand at (p, q, 0). -/
theorem broadcastTo_ab1_abc_apply {a b c : ℕ} (w : (⟨3, ![a, b, 1]⟩ : Shape).Idx → α)
    (h : (⟨3, ![a, b, 1]⟩ : Shape).Broadcasts ⟨3, ![a, b, c]⟩) (p : Fin a) (q : Fin b) (l : Fin c) :
    broadcastTo ⟨3, ![a, b, c]⟩ w h (ix3 p q l) = w (ix3 p q (0 : Fin 1)) := by
  refine broadcastTo_apply w h (ix3 p q l) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.LaneLayout
-- ==== Proof.KernelPayload.lean ====
/-
  What the kernel body stores, index by index: the line-wise quantisation of the block it loaded.

  The body's stored value is rebuilt here from named stages: the minimum and the maximum along the last
  axis kept as [128, 64, 1] columns, the step column, the zero-point column, and the [128, 64, 128] result.
  Read at (p, q, ·) the columns are the minimum, maximum, step and zero point of line (p, q) of the block;
  read at (p, q, l) the result is entry (p, q, l) quantised within that line. The kernel forms the zero
  point from 0 − min where the specification negates; on the extended reals these are one value.
-/
import proofs.«180375_j1812476199613_2_alg».proof.Proof.Gen.KernelIdeal.Skeleton
import proofs.«180375_j1812476199613_2_alg».proof.Proof.QuantSpec
import proofs.«180375_j1812476199613_2_alg».proof.Proof.LibLaneFold
import proofs.«180375_j1812476199613_2_alg».proof.Proof.LibLaneLayout

noncomputable section

namespace Cert.KernelIdeal.Payload

open Cert.KernelIdeal Cert.KernelIdeal.Gen
open Idealize.ShloMosaic Idealize.ShloMosaic.ValueIdx Cert.Quant

/-- The minimum of each line, as a [128, 64, 1] column. -/
def lineMin (x0 : Vec Ideal S128x64x128 .f32) : FVec Ideal S128x64x1 .f32 :=
  shapeCast S128x64x1
    (multiReduction .minimumf [2] S128x64 (shapeCast S128x64x128 x0 shapeCasts_S128x64x128_S128x64x128) 0x7F800000#32
      reduces_S128x64x128_S128x64 (.inl rfl) rfl) shapeCasts_S128x64_S128x64x1

/-- The maximum of each line, as a [128, 64, 1] column. -/
def lineMax (x0 : Vec Ideal S128x64x128 .f32) : FVec Ideal S128x64x1 .f32 :=
  shapeCast S128x64x1
    (multiReduction .maximumf [2] S128x64 (shapeCast S128x64x128 x0 shapeCasts_S128x64x128_S128x64x128) 0xFF800000#32
      reduces_S128x64x128_S128x64 (.inl rfl) rfl) shapeCasts_S128x64_S128x64x1

/-- The step of each line. -/
def stepCol (x0 : Vec Ideal S128x64x128 .f32) : FVec Ideal S128x64x1 .f32 :=
  minimumf (broadcast S128x64x1 (Scalar.ofBits .f32 0x461C4000#32))
    (maximumf (broadcast S128x64x1 (Scalar.ofBits .f32 0x3727C5AC#32))
      (divf (subf (lineMax x0) (lineMin x0)) (broadcast S128x64x1 (Scalar.ofBits .f32 0x41700000#32))))

/-- The rounded zero point of each line. -/
def zpCol (x0 : Vec Ideal S128x64x128 .f32) : FVec Ideal S128x64x1 .f32 :=
  roundeven
    (minimumf (broadcast S128x64x1 (Scalar.ofBits .f32 0x461C4000#32))
      (maximumf (broadcast S128x64x1 (Scalar.ofBits .f32 0xC61C4000#32))
        (divf (subf (broadcast S128x64x1 (Scalar.ofBits .f32 0x00000000#32)) (lineMin x0)) (stepCol x0))))

/-- The stored block from the stages. -/
def outBlock (x0 : Vec Ideal S128x64x128 .f32) : FVec Ideal S128x64x128 .f32 :=
  mulf
    (subf
      (minimumf (broadcast S128x64x128 (Scalar.ofBits .f32 0x41700000#32))
        (maximumf (broadcast S128x64x128 (Scalar.ofBits .f32 0x00000000#32))
          (addf
            (roundeven (divf (shapeCast S128x64x128 x0 shapeCasts_S128x64x128_S128x64x128)
              (broadcastTo S128x64x128 (stepCol x0) broadcasts_S128x64x1_S128x64x128)))
            (broadcastTo S128x64x128 (zpCol x0) broadcasts_S128x64x1_S128x64x128))))
      (broadcastTo S128x64x128 (zpCol x0) broadcasts_S128x64x1_S128x64x128))
    (broadcastTo S128x64x128 (stepCol x0) broadcasts_S128x64x1_S128x64x128)

/-- The body's stored value is the staged block. -/
theorem pay_stages (x0 : Vec Ideal S128x64x128 .f32) : k0_pay1 (F := Ideal) x0 = outBlock x0 := rfl

/-- Line (p, q) of the block. -/
abbrev lineOf (x0 : Vec Ideal S128x64x128 .f32) (p : Fin 128) (q : Fin 64) : Fin 128 → EReal :=
  fun k => x0 (ix3 p q k)

theorem lineMin_apply (x0 : Vec Ideal S128x64x128 .f32) (p : Fin 128) (q : Fin 64) (u : Fin 1) :
    lineMin x0 (ix3 p q u) = groupMin (lineOf x0 p q) := by
  unfold lineMin
  rw [shapeCast_self]
  exact (Cert.LaneLayout.shapeCast_ab_ab1_apply _ shapeCasts_S128x64_S128x64x1 p q u).trans
    (Cert.LaneFold.lane_min x0 0x7F800000#32 reduces_S128x64x128_S128x64 (.inl rfl) rfl p q)

theorem lineMax_apply (x0 : Vec Ideal S128x64x128 .f32) (p : Fin 128) (q : Fin 64) (u : Fin 1) :
    lineMax x0 (ix3 p q u) = groupMax (lineOf x0 p q) := by
  unfold lineMax
  rw [shapeCast_self]
  exact (Cert.LaneLayout.shapeCast_ab_ab1_apply _ shapeCasts_S128x64_S128x64x1 p q u).trans
    (Cert.LaneFold.lane_max x0 0xFF800000#32 reduces_S128x64x128_S128x64 (.inl rfl) rfl p q)

/-- A scalar constant's value is what its word denotes. -/
theorem scalar_ofBits (b : BitVec (FTy.f32).bits) : Scalar.ofBits (F := Ideal) .f32 b = Ideal.ofBits .f32 b := rfl

/-- Rounding half to even, entry by entry. -/
theorem roundeven_apply {s : Shape} (a : FVec Ideal s .f32) (i : s.Idx) :
    roundeven a i = Ideal.liftRound Ideal.roundHalfEven (a i) := rfl

theorem stepCol_apply (x0 : Vec Ideal S128x64x128 .f32) (p : Fin 128) (q : Fin 64) (u : Fin 1) :
    stepCol x0 (ix3 p q u) = scale (lineOf x0 p q) := by
  unfold stepCol scale
  rw [minimumf_apply, maximumf_apply, divf_apply, subf_apply, broadcast_apply, broadcast_apply, broadcast_apply,
    scalar_ofBits, scalar_ofBits, scalar_ofBits, lineMax_apply, lineMin_apply]

theorem zpCol_apply (x0 : Vec Ideal S128x64x128 .f32) (p : Fin 128) (q : Fin 64) (u : Fin 1) :
    zpCol x0 (ix3 p q u) = zeroPoint (lineOf x0 p q) := by
  unfold zpCol zeroPoint
  rw [roundeven_apply, minimumf_apply, maximumf_apply, divf_apply, subf_apply, broadcast_apply, broadcast_apply,
    broadcast_apply, scalar_ofBits, scalar_ofBits, scalar_ofBits, lineMin_apply, stepCol_apply,
    Ideal.ofBits_zero_f32, zero_sub]

/-- The stored block at (p, q, l): entry (p, q, l) quantised within line (p, q). -/
theorem outBlock_apply (x0 : Vec Ideal S128x64x128 .f32) (p : Fin 128) (q : Fin 64) (l : Fin 128) :
    outBlock x0 (ix3 p q l) = fakeQuant (lineOf x0 p q) (x0 (ix3 p q l)) := by
  have hs : broadcastTo S128x64x128 (stepCol x0) broadcasts_S128x64x1_S128x64x128 (ix3 p q l) = scale (lineOf x0 p q) :=
    (Cert.LaneLayout.broadcastTo_ab1_abc_apply (stepCol x0) broadcasts_S128x64x1_S128x64x128 p q l).trans
      (stepCol_apply x0 p q 0)
  have hz : broadcastTo S128x64x128 (zpCol x0) broadcasts_S128x64x1_S128x64x128 (ix3 p q l) = zeroPoint (lineOf x0 p q) :=
    (Cert.LaneLayout.broadcastTo_ab1_abc_apply (zpCol x0) broadcasts_S128x64x1_S128x64x128 p q l).trans
      (zpCol_apply x0 p q 0)
  unfold outBlock fakeQuant
  rw [mulf_apply, subf_apply, minimumf_apply, maximumf_apply, addf_apply, roundeven_apply, divf_apply,
    broadcast_apply, broadcast_apply, scalar_ofBits, scalar_ofBits, shapeCast_self, hs, hz, Ideal.ofBits_zero_f32]

/-- The body's stored value is the line-wise quantisation of the loaded block. -/
theorem pay_eq (x0 : Vec Ideal S128x64x128 .f32) : k0_pay1 (F := Ideal) x0 = onLines x0 := by
  rw [pay_stages]
  funext j
  obtain ⟨p, q, l, rfl⟩ : ∃ (p : Fin 128) (q : Fin 64) (l : Fin 128), j = ix3 p q l := ⟨j 0, j 1, j 2, eq_ix3 j⟩
  exact outBlock_apply x0 p q l

end Cert.KernelIdeal.Payload

end
-- ==== Proof.KernelArray.lean ====
/-
  What the kernel's program leaves in its result: the argument read as [8192, 64, 128], quantised line by
  line, read back as a matrix.

  Grid point t loads and stores block t of the [8192, 64, 128] arrays: rows 128·t, …, 128·t + 127, every
  group, every lane. A line (r, c, ·) lies wholly inside the block of point r / 128, so what a point writes
  back is its block of the line-wise quantisation of the whole array, and the 64 blocks cover the array. The
  host's reshape before the call reads the argument as [8192, 64, 128]; the one after reads the call's result
  back as a matrix.
-/
import proofs.«180375_j1812476199613_2_alg».proof.Proof.Gen.KernelIdeal.Frame
import proofs.«180375_j1812476199613_2_alg».proof.Proof.KernelPayload
import Idealize.ShloMosaic.Lib.Pipeline.Value
import Idealize.ShloMosaic.Lib.StableHlo.Run

set_option maxRecDepth 16384

noncomputable section

namespace Cert.Quant

open Idealize.ShloMosaic Idealize.ShloMosaic.ValueIdx

/-- A [128, 64, 128] block `B` that reads an [n, 64, 128] array `X` through an index map `e` which keeps lines
    together (line (p, q, ·) of the block lands on the line of the array through e(p, q, ·)) quantises line by
    line to what the array's line-wise quantisation reads through `e`. -/
theorem onLines_block {n : ℕ} (X : (⟨3, ![n, 64, 128]⟩ : Shape).Idx → EReal)
    (B : (⟨3, ![128, 64, 128]⟩ : Shape).Idx → EReal)
    (e : (⟨3, ![128, 64, 128]⟩ : Shape).Idx → (⟨3, ![n, 64, 128]⟩ : Shape).Idx)
    (hB : ∀ y, B y = X (e y))
    (he : ∀ y (l : Fin 128), e (ix3 (y 0) (y 1) l) = ix3 ((e y) 0) ((e y) 1) l)
    (y : (⟨3, ![128, 64, 128]⟩ : Shape).Idx) : onLines B y = onLines X (e y) := by
  show fakeQuant (fun l => B (ix3 (y 0) (y 1) l)) (B y) = fakeQuant (fun l => X (ix3 ((e y) 0) ((e y) 1) l)) (X (e y))
  rw [hB y]
  exact congrArg (fun g => fakeQuant g (X (e y))) (funext fun l => (hB _).trans (congrArg X (he y l)))

end Cert.Quant

namespace Cert.KernelIdeal.ArrayValue

open Cert.KernelIdeal Cert.KernelIdeal.Gen
open Idealize.ShloMosaic Idealize.ShloMosaic.TcCoe Idealize.ShloMosaic.ValueIdx Idealize.SL.Sem Cert.Quant
open Idealize.ShloMosaic.Pipeline (Dat Cfg Window)

variable (m : (ℓ : Loc nD τ sig) → Buf (Elt Ideal) ℓ) (ρ : Dev nD → PrngReg)

theorem hz : (![0, 0, 0] : Fin 3 → Nat) = fun _ => 0 := funext fun a => by fin_cases a <;> rfl

/-- The two windows move together: at every point both sit at block (t₀, 0, 0) with the same t₀. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every block row of the array is some point's. -/
theorem idx_onto : ∀ q0 : Fin 64, ∃ t : Fin cfg0.N, win0_1.index t = ![q0.val, 0, 0] :=
  (by decide +kernel : ∀ q0 : Fin 64, ∃ t : Fin grid0.N, win0_1.index t = ![q0.val, 0, 0])

/-- An element of the input's block sits in the array where the same element of the output's block sits. -/
theorem emb_eq (t : Fin cfg0.N) (y : S128x64x128.Idx) :
    ((cfg0.win 0).blk t).view.emb y = ((cfg0.win 1).blk t).view.emb y := by
  obtain ⟨e0, e1, e2, e3, e4⟩ := idx_facts t
  funext a; apply Fin.ext
  match a with
  | ⟨0, _⟩ =>
    show win0_0.index t (0 : Fin 3) * 128 + 1 * (y 0).val = win0_1.index t (0 : Fin 3) * 128 + 1 * (y 0).val
    omega
  | ⟨1, _⟩ =>
    show win0_0.index t (1 : Fin 3) * 64 + 1 * (y 1).val = win0_1.index t (1 : Fin 3) * 64 + 1 * (y 1).val
    omega
  | ⟨2, _⟩ =>
    show win0_0.index t (2 : Fin 3) * 128 + 1 * (y 2).val = win0_1.index t (2 : Fin 3) * 128 + 1 * (y 2).val
    omega

/-- The output's block keeps lines together. -/
theorem emb_line (t : Fin cfg0.N) (y : S128x64x128.Idx) (l : Fin 128) :
    ((cfg0.win 1).blk t).view.emb (ix3 (y 0) (y 1) l)
      = ix3 ((((cfg0.win 1).blk t).view.emb y) 0) ((((cfg0.win 1).blk t).view.emb y) 1) l := by
  obtain ⟨e0, e1, e2, e3, e4⟩ := idx_facts t
  funext a; apply Fin.ext
  match a with
  | ⟨0, _⟩ => rfl
  | ⟨1, _⟩ => rfl
  | ⟨2, _⟩ =>
    show win0_1.index t (2 : Fin 3) * 128 + 1 * l.val = l.val
    omega

/-- The input's block at a point reads the reshaped argument where the output's block sits. -/
theorem iblk_read (c : Dev nD) (t : Fin cfg0.N) (y : S128x64x128.Idx) :
    iblk m c 0 t y = V m c main_v0 (((cfg0.win 1).blk t).view.emb y) := by
  show V m c main_v0 (((cfg0.win 0).blk t).view.emb y) = _
  exact congrArg (V m c main_v0) (emb_eq t y)

/-- What point `t` writes back is block `t` of the line-wise quantisation of the array the region finds. -/
theorem flushed_eq (c : Dev nD) (t : Fin cfg0.N) :
    (dats m 0 c).flushed 1 t = ((cfg0.win 1).blk t).view.read (Elt Ideal) (onLines (n := 8192) (V m c main_v0)) := by
  show (cfg0.win 1).cut (grid0.coords t) ((dats m 0 c).after 1 t) = _
  rw [after0_1]
  unfold out0_1
  rw [View.canon_unit_zero hz]
  simp only [View.ld_unit_zero (S := S128x64x128) hz]
  rw [Cert.KernelIdeal.Payload.pay_eq]
  funext j
  show onLines (iblk m c 0 t) j = onLines (n := 8192) (V m c main_v0) (((cfg0.win 1).blk t).view.emb j)
  exact onLines_block (V m c main_v0) (iblk m c 0 t) (((cfg0.win 1).blk t).view.emb) (iblk_read m c t) (emb_line t) j

/-- An index of the array is in point `t`'s block iff each coordinate is in the block's range on its axis. -/
theorem mem_blk (t : Fin cfg0.N) (i : S8192x64x128.Idx) :
    i ∈ ((cfg0.win 1).blk t).view.set ↔ ∀ a : Fin 3, win0_1.index t a * S128x64x128.size a ≤ (i a).val
      ∧ (i a).val < win0_1.index t a * S128x64x128.size a + S128x64x128.size a := by
  show i ∈ ((View.whole main_v1).slice (win0_1.rect t)).set ↔ _
  rw [View.set_slice_whole, Rect.mem_set_unit]
  exact Iff.rfl

/-- Every index of the array lies in the block of the point that holds its row. -/
theorem cover (i : S8192x64x128.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 128 := (i 2).isLt
  obtain ⟨t, ht⟩ := idx_onto ⟨(i 0).val / 128, by omega⟩
  have q0 : win0_1.index t (0 : Fin 3) = (i 0).val / 128 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 128 ≤ (i 0).val ∧ (i 0).val < win0_1.index t (0 : Fin 3) * 128 + 128
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 128 ≤ (i 2).val ∧ (i 2).val < win0_1.index t (2 : Fin 3) * 128 + 128
    omega

/-- The call's result array after the run: the line-wise quantisation of the array the region found. -/
theorem final (c : Dev nD) : (dats m 0 c).arrAt 1 cfg0.N = onLines (n := 8192) (V m c main_v0) :=
  (dats m 0 c).arrAt_eq_of_cover 1 (onLines (n := 8192) (V m c main_v0)) (fun t _ => flushed_eq m c t) cover

/-- The array the region finds is the argument read as [8192, 64, 128]. -/
theorem V_main_v0 (c : Dev nD) :
    (V m c main_v0 : S8192x64x128.Idx → EReal)
      = shapeCast S8192x64x128 (m ((c : Thread nD τ).loc main_arg0)) shapeCasts_S8192x8192_S8192x64x128 := by
  show StableHlo.after hostOps0 (fun b => m (c, b)) (Proc.devRef .tc main_v0) = _
  after_results
  rfl

/-- The program's result after the host's last reshape: the call's result array read back as a matrix. -/
theorem tail_main_v2 (c : Dev nD) :
    Pipeline.afterTail₀ cfgs (dats m) 0 (V0 m) [hostOps1] c main_v2
      = shapeCast S8192x8192 (onLines (n := 8192) (V m c main_v0)) shapeCasts_S8192x64x128_S8192x8192 := by
  unfold Pipeline.afterTail₀
  show StableHlo.after hostOps1 _ (Proc.devRef .tc main_v2) = _
  after_results
  rw [(Pipeline.withArrays_arr spec0 launch0.win.arr_inj c _ _ 1).trans (final m c)]
  rfl

/-- The kernel's program, run: every weakly fair execution terminates with the result at the argument read
    as [8192, 64, 128], quantised line by line and read back as a matrix, and the argument unchanged. -/
theorem run : θ_run defs (onTc (τ := τ) (main (F := Ideal))) ⟨m, fun _ => 0, ρ⟩ fun r => ∀ c : Dev nD,
      r.2.mem ((c.tc : Thread nD τ).loc main_v2)
        = shapeCast S8192x8192
            (onLines (n := 8192) (shapeCast S8192x64x128 (m ((c.tc : Thread nD τ).loc main_arg0)) shapeCasts_S8192x8192_S8192x64x128))
            shapeCasts_S8192x64x128_S8192x8192
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_main_v2 m c).trans (by rw [V_main_v0])),
        ((h c).2 main_arg0 (Pipeline.mem_restRefs_of main_arg0 (by decide) (by decide))).trans (W_main_arg0 m (dats m) c)⟩)
    (run_main m ρ)

end Cert.KernelIdeal.ArrayValue

end
-- ==== Proof.RefRows.lean ====
/-
  The reference computes the row-wise quantisation of the [524288, 128] reading of its argument.

  Each stage of the reference is read at an index. The two reductions along axis 1 are the minimum and the
  maximum of a row; the [524288, 1] stages (range over 15, the two clamps, the negated minimum over the step,
  the rounding) depend on the row q only and are the step and the rounded zero point of that row; the
  [524288, 128] stages at (q, l) then combine entry (q, l) with the step and zero point of row q. The host's
  quotient, negation and rounding are the extended reals' own, and the integer bounds 0 and 15 of the last
  clamp are the reals 0 and 15.
-/
import proofs.«180375_j1812476199613_2_alg».proof.Proof.Gen.ReferenceIdeal.Read
import proofs.«180375_j1812476199613_2_alg».proof.Proof.QuantSpec
import proofs.«180375_j1812476199613_2_alg».proof.Proof.LibLaneFold

noncomputable section

namespace Cert.ReferenceIdeal.RefValue

open Cert.ReferenceIdeal Cert.ReferenceIdeal.Gen Cert.ReferenceIdeal.Read
open Idealize.ShloMosaic Idealize.ShloMosaic.ValueIdx Cert.Quant

/-- Row q of the [524288, 128] reading of the argument. -/
abbrev rowOf (x : (⟨S8192x8192, .f32⟩ : BufTy).Contents (Elt Ideal)) (q : Fin 524288) : Fin 128 → EReal :=
  fun l => val_main_v0 (F := Ideal) x (ix2 q l)

theorem hred : S524288x128.Reduces [1] S524288 := by decide

/-- The first reduction at q is the minimum of row q. -/
theorem min_read (x : (⟨S8192x8192, .f32⟩ : BufTy).Contents (Elt Ideal)) (q : Fin 524288) :
    val_main_v1 (F := Ideal) x (ix1 q) = groupMin (rowOf x q) :=
  Cert.LaneFold.host_row_fold (α := Ideal .f32) (FloatOps.minimumf (F := Ideal) (φ := .f32)) (val_main_v0 (F := Ideal) x) (val_main_cst (F := Ideal))
    reducesTo_S524288x128_S524288_d1 hred h_S_ q

/-- The second reduction at q is the maximum of row q. -/
theorem max_read (x : (⟨S8192x8192, .f32⟩ : BufTy).Contents (Elt Ideal)) (q : Fin 524288) :
    val_main_v3 (F := Ideal) x (ix1 q) = groupMax (rowOf x q) :=
  Cert.LaneFold.host_row_fold (α := Ideal .f32) (FloatOps.maximumf (F := Ideal) (φ := .f32)) (val_main_v0 (F := Ideal) x) (val_main_cst_0 (F := Ideal))
    reducesTo_S524288x128_S524288_d1 hred h_S_ q

/-! The index each layout stage reads its operand at, in coordinates. -/

theorem i2 (q : Fin 524288) (u : Fin 1) : idx_main_v2 (ix2 q u) = ix1 q :=
  funext fun a => by match a with | ⟨0, _⟩ => rfl
theorem i4 (q : Fin 524288) (u : Fin 1) : idx_main_v4 (ix2 q u) = ix1 q :=
  funext fun a => by match a with | ⟨0, _⟩ => rfl
theorem i13 (q : Fin 524288) (l : Fin 128) : idx_main_v13 (ix2 q l) = ix2 q (0 : Fin 1) :=
  funext fun a => by match a with | ⟨0, _⟩ => rfl | ⟨1, _⟩ => rfl
theorem i16 (q : Fin 524288) (l : Fin 128) : idx_main_v16 (ix2 q l) = ix2 q (0 : Fin 1) :=
  funext fun a => by match a with | ⟨0, _⟩ => rfl | ⟨1, _⟩ => rfl
theorem i19 (q : Fin 524288) (l : Fin 128) : idx_main_v19 (ix2 q l) = ix2 q (0 : Fin 1) :=
  funext fun a => by match a with | ⟨0, _⟩ => rfl | ⟨1, _⟩ => rfl
theorem i21 (q : Fin 524288) (l : Fin 128) : idx_main_v21 (ix2 q l) = ix2 q (0 : Fin 1) :=
  funext fun a => by match a with | ⟨0, _⟩ => rfl | ⟨1, _⟩ => rfl

/-- The first clamp's result at (q, ·) is the step of row q. -/
theorem step_read (x : (⟨S8192x8192, .f32⟩ : BufTy).Contents (Elt Ideal)) (q : Fin 524288) (u : Fin 1) :
    val_main_v8 (F := Ideal) x (ix2 q u) = scale (rowOf x q) := by
  rw [val_main_v8_apply, val_main_call0_v2_apply, val_main_v7_apply, val_main_v5_apply, val_main_v4_apply,
    val_main_v2_apply, i4, i2, max_read, min_read]
  rfl

/-- The rounded second clamp at (q, ·) is the zero point of row q. -/
theorem zp_read (x : (⟨S8192x8192, .f32⟩ : BufTy).Contents (Elt Ideal)) (q : Fin 524288) (u : Fin 1) :
    val_main_v12 (F := Ideal) x (ix2 q u) = zeroPoint (rowOf x q) := by
  rw [val_main_v12_apply, val_main_v11_apply, val_main_call1_v2_apply, val_main_v10_apply, val_main_v9_apply,
    val_main_v2_apply, i2, min_read, step_read]
  rfl

/-- The last [524288, 128] stage at (q, l) is entry (q, l) quantised within row q. -/
theorem result_read (x : (⟨S8192x8192, .f32⟩ : BufTy).Contents (Elt Ideal)) (q : Fin 524288) (l : Fin 128) :
    val_main_v22 (F := Ideal) x (ix2 q l) = fakeQuant (rowOf x q) (val_main_v0 (F := Ideal) x (ix2 q l)) := by
  have h15 : val_main_call4_v4 (F := Ideal) (ix2 q l) = Ideal.ofBits .f32 0x41700000#32 := int_fifteen
  have h0 : val_main_call4_v1 (F := Ideal) (ix2 q l) = 0 := int_zero
  rw [val_main_v22_apply, val_main_v20_apply, val_main_v18_apply, val_main_call4_v2_apply, val_main_v17_apply,
    val_main_v15_apply, val_main_v14_apply, val_main_v13_apply, val_main_v16_apply, val_main_v19_apply,
    val_main_v21_apply, i13, i16, i19, i21, step_read, zp_read, h15, h0]
  rfl

/-- The last [524288, 128] stage is the row-wise quantisation of the first. -/
theorem rows_eq (x : (⟨S8192x8192, .f32⟩ : BufTy).Contents (Elt Ideal)) :
    val_main_v22 (F := Ideal) x = onRows (val_main_v0 (F := Ideal) x) := by
  funext j
  obtain ⟨q, l, rfl⟩ : ∃ (q : Fin 524288) (l : Fin 128), j = ix2 q l := ⟨j 0, j 1, eq_ix2 j⟩
  exact result_read x q l

/-- The reference's result: the argument read as [524288, 128], quantised row by row, read back as a matrix. -/
theorem result_rows (x : (⟨S8192x8192, .f32⟩ : BufTy).Contents (Elt Ideal)) :
    val_main_v23 (F := Ideal) x
      = shapeCast S8192x8192 (onRows (shapeCast S524288x128 x shapeCasts_S8192x8192_S524288x128))
          shapeCasts_S524288x128_S8192x8192 := by
  unfold val_main_v23
  rw [rows_eq]
  rfl

end Cert.ReferenceIdeal.RefValue

end
-- ==== Proof.Regroup.lean ====
/-
  The two arrangements of an [8192, 8192] matrix quantise it alike.

  Entry (R, C) of the matrix lies in the group of the 128 columns (C / 128) · 128, …, (C / 128) · 128 + 127 of
  row R. Read row-major as a [524288, 128] array it is entry (R · 64 + C / 128, C % 128), and row
  R · 64 + C / 128 of that array is exactly this group. Read as an [8192, 64, 128] array it is entry
  (R, C / 128, C % 128), and line (R, C / 128, ·) is again this group. So quantising the rows of the first
  reading and quantising the lines of the second, each cast back to the matrix, give the same matrix.
-/
import proofs.«180375_j1812476199613_2_alg».proof.Proof.QuantSpec
import Idealize.ShloMosaic.Lib.Pipeline.Value

noncomputable section

namespace Cert.Quant

open Idealize.ShloMosaic Idealize.ShloMosaic.ValueIdx

/-- Column (C / 128) · 128 + l of the matrix, for a lane l of C's group. -/
abbrev groupCol (C : Fin 8192) (l : Fin 128) : Fin 8192 :=
  ⟨C.val / 128 * 128 + l.val, by have := C.isLt; have := l.isLt; omega⟩

/-- Row R · 64 + C / 128 of the [524288, 128] reading. -/
abbrev flatRow (R C : Fin 8192) : Fin 524288 :=
  ⟨R.val * 64 + C.val / 128, by have := R.isLt; have := C.isLt; omega⟩

/-- The group index C / 128. -/
abbrev groupOf (C : Fin 8192) : Fin 64 := ⟨C.val / 128, by have := C.isLt; omega⟩

/-- The lane C % 128. -/
abbrev laneOf (C : Fin 8192) : Fin 128 := ⟨C.val % 128, Nat.mod_lt _ (by decide)⟩

/-- Entry (R, C) of the matrix quantised within its group of row R. -/
def onGroups (x : (⟨2, ![8192, 8192]⟩ : Shape).Idx → EReal) (R C : Fin 8192) : EReal :=
  fakeQuant (fun l => x (ix2 R (groupCol C l))) (x (ix2 R C))

/-- The [524288, 128] reading of the matrix, at (R · 64 + C / 128, l), is the matrix at (R, (C / 128) · 128 + l). -/
theorem flat_read (x : (⟨2, ![8192, 8192]⟩ : Shape).Idx → EReal)
    (h : (⟨2, ![8192, 8192]⟩ : Shape).ShapeCasts ⟨2, ![524288, 128]⟩) (R C : Fin 8192) (l : Fin 128) :
    shapeCast ⟨2, ![524288, 128]⟩ x h (ix2 (flatRow R C) l) = x (ix2 R (groupCol C l)) :=
  shapeCast_apply x h _ _ (by
    rw [Shape.rowMajor_val_two, Shape.rowMajor_val_two]
    show R.val * 8192 + (C.val / 128 * 128 + l.val) = (R.val * 64 + C.val / 128) * 128 + l.val
    omega)

/-- The [8192, 64, 128] reading of the matrix, at (R, C / 128, l), is the matrix at (R, (C / 128) · 128 + l). -/
theorem lines_read (x : (⟨2, ![8192, 8192]⟩ : Shape).Idx → EReal)
    (h : (⟨2, ![8192, 8192]⟩ : Shape).ShapeCasts ⟨3, ![8192, 64, 128]⟩) (R C : Fin 8192) (l : Fin 128) :
    shapeCast ⟨3, ![8192, 64, 128]⟩ x h (ix3 R (groupOf C) l) = x (ix2 R (groupCol C l)) :=
  shapeCast_apply x h _ _ (by
    rw [Shape.rowMajor_val_two, Shape.rowMajor_val_three]
    show R.val * 8192 + (C.val / 128 * 128 + l.val) = (R.val * 64 + C.val / 128) * 128 + l.val
    omega)

/-- C's own lane of its group is column C. -/
theorem groupCol_laneOf (C : Fin 8192) : groupCol C (laneOf C) = C :=
  Fin.ext (by show C.val / 128 * 128 + C.val % 128 = C.val; omega)

/-- Quantising the rows of the [524288, 128] reading and casting back gives, at (R, C), the entry quantised
    within its group. -/
theorem rows_back (x : (⟨2, ![8192, 8192]⟩ : Shape).Idx → EReal)
    (h : (⟨2, ![8192, 8192]⟩ : Shape).ShapeCasts ⟨2, ![524288, 128]⟩)
    (h' : (⟨2, ![524288, 128]⟩ : Shape).ShapeCasts ⟨2, ![8192, 8192]⟩) (R C : Fin 8192) :
    shapeCast ⟨2, ![8192, 8192]⟩ (onRows (shapeCast ⟨2, ![524288, 128]⟩ x h)) h' (ix2 R C) = onGroups x R C := by
  refine (shapeCast_apply _ h' (ix2 R C) (ix2 (flatRow R C) (laneOf C)) (by
    rw [Shape.rowMajor_val_two, Shape.rowMajor_val_two]
    show (R.val * 64 + C.val / 128) * 128 + C.val % 128 = R.val * 8192 + C.val
    omega)).trans ?_
  show fakeQuant (fun l => shapeCast ⟨2, ![524288, 128]⟩ x h (ix2 (flatRow R C) l))
      (shapeCast ⟨2, ![524288, 128]⟩ x h (ix2 (flatRow R C) (laneOf C))) = _
  rw [flat_read x h R C (laneOf C), groupCol_laneOf]
  exact congrArg (fun g => fakeQuant g (x (ix2 R C))) (funext fun l => flat_read x h R C l)

/-- Quantising the lines of the [8192, 64, 128] reading and casting back gives the same. -/
theorem lines_back (x : (⟨2, ![8192, 8192]⟩ : Shape).Idx → EReal)
    (h : (⟨2, ![8192, 8192]⟩ : Shape).ShapeCasts ⟨3, ![8192, 64, 128]⟩)
    (h' : (⟨3, ![8192, 64, 128]⟩ : Shape).ShapeCasts ⟨2, ![8192, 8192]⟩) (R C : Fin 8192) :
    shapeCast ⟨2, ![8192, 8192]⟩ (onLines (shapeCast ⟨3, ![8192, 64, 128]⟩ x h)) h' (ix2 R C) = onGroups x R C := by
  refine (shapeCast_apply _ h' (ix2 R C) (ix3 R (groupOf C) (laneOf C)) (by
    rw [Shape.rowMajor_val_three, Shape.rowMajor_val_two]
    show (R.val * 64 + C.val / 128) * 128 + C.val % 128 = R.val * 8192 + C.val
    omega)).trans ?_
  show fakeQuant (fun l => shapeCast ⟨3, ![8192, 64, 128]⟩ x h (ix3 R (groupOf C) l))
      (shapeCast ⟨3, ![8192, 64, 128]⟩ x h (ix3 R (groupOf C) (laneOf C))) = _
  rw [lines_read x h R C (laneOf C), groupCol_laneOf]
  exact congrArg (fun g => fakeQuant g (x (ix2 R C))) (funext fun l => lines_read x h R C l)

/-- The two arrangements give one matrix. -/
theorem rows_eq_lines (x : (⟨2, ![8192, 8192]⟩ : Shape).Idx → EReal)
    (h₁ : (⟨2, ![8192, 8192]⟩ : Shape).ShapeCasts ⟨2, ![524288, 128]⟩)
    (h₁' : (⟨2, ![524288, 128]⟩ : Shape).ShapeCasts ⟨2, ![8192, 8192]⟩)
    (h₂ : (⟨2, ![8192, 8192]⟩ : Shape).ShapeCasts ⟨3, ![8192, 64, 128]⟩)
    (h₂' : (⟨3, ![8192, 64, 128]⟩ : Shape).ShapeCasts ⟨2, ![8192, 8192]⟩) :
    shapeCast ⟨2, ![8192, 8192]⟩ (onRows (shapeCast ⟨2, ![524288, 128]⟩ x h₁)) h₁'
      = shapeCast ⟨2, ![8192, 8192]⟩ (onLines (shapeCast ⟨3, ![8192, 64, 128]⟩ x h₂)) h₂' := by
  funext i
  obtain ⟨R, C, rfl⟩ : ∃ (R C : Fin 8192), i = ix2 R C := ⟨i 0, i 1, eq_ix2 i⟩
  exact (rows_back x h₁ h₁' R C).trans (lines_back x h₂ h₂' R C).symm

end Cert.Quant

end
-- ==== Proof.lean ====
/-
  The kernel quantises a matrix group by group, and so does the reference; the two differ only in how they
  arrange the matrix.

  A group is 128 consecutive columns of one row of the [8192, 8192] argument. Both programs take a group's
  minimum and maximum, form the step clamp((max − min) / 15, 1e-5, 1e4) and the zero point
  round(clamp(−min / step, −1e4, 1e4)), and send an entry v to (clamp(round(v / step) + zp, 0, 15) − zp) · step.
  The kernel reads the matrix as [8192, 64, 128] and works on blocks of 128 rows, each holding whole groups as
  lines along the last axis; the reference reads it as [524288, 128] with one group per row. On the extended
  reals every operation is exact, the kernel's 0 − min is the reference's −min, the reference's integer bounds
  0 and 15 are the kernel's float bounds, and a reduction by min or max does not depend on its order: both
  results are, entry by entry, the entry quantised within its group. No finiteness of the input is used.
  The three frames are the generated ones (the reference's is its generated run with the result dropped), and
  the idealisation rewrote nothing, so its conjunct is trivial.
-/
import proofs.«180375_j1812476199613_2_alg».proof.Defs
import proofs.«180375_j1812476199613_2_alg».proof.Proof.Gen.Kernel
import proofs.«180375_j1812476199613_2_alg».proof.Proof.Gen.Kernel.Skeleton
import proofs.«180375_j1812476199613_2_alg».proof.Proof.Gen.Kernel.Launch
import proofs.«180375_j1812476199613_2_alg».proof.Proof.Gen.Kernel.Points
import proofs.«180375_j1812476199613_2_alg».proof.Proof.Gen.Kernel.Frame
import proofs.«180375_j1812476199613_2_alg».proof.Proof.Gen.KernelIdeal
import proofs.«180375_j1812476199613_2_alg».proof.Proof.Gen.KernelIdeal.Skeleton
import proofs.«180375_j1812476199613_2_alg».proof.Proof.Gen.KernelIdeal.Launch
import proofs.«180375_j1812476199613_2_alg».proof.Proof.Gen.KernelIdeal.Points
import proofs.«180375_j1812476199613_2_alg».proof.Proof.Gen.KernelIdeal.Frame
import proofs.«180375_j1812476199613_2_alg».proof.Proof.Gen.ReferenceIdeal
import proofs.«180375_j1812476199613_2_alg».proof.Proof.Gen.Pre_finite_inputs
import proofs.«180375_j1812476199613_2_alg».proof.Proof.Gen.ReferenceIdeal.Run
import proofs.«180375_j1812476199613_2_alg».proof.Proof.Gen.ReferenceIdeal.Read
import Idealize.ShloMosaic.Adequacy
import Idealize.ShloMosaic.Init

import proofs.«180375_j1812476199613_2_alg».proof.Proof.KernelArray
import proofs.«180375_j1812476199613_2_alg».proof.Proof.RefRows
import proofs.«180375_j1812476199613_2_alg».proof.Proof.Regroup

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealised programs end with the argument quantised group by group: the kernel through the
    [8192, 64, 128] reading, the reference through the [524288, 128] reading, which agree entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_rows, hagree c]
  exact Cert.Quant.rows_eq_lines _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
